-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .hbm, ⟨4, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibSoftmaxRows.lean ====
/-
  The softmax of each row of an [a, b] array, as a vector program spells it, read at an entry.

  The program takes each row's maximum from minus infinity and keeps it as an [a, 1] column, broadcasts the column
  over the b columns, subtracts, exponentiates, sums each row of exponentials and keeps the sums as an [a, 1] column,
  broadcasts that column, and divides. On the extended reals entry (p, q) of the result is
  exp(s_q - m) / (sum over k of exp(s_k - m)), where s is row p of the array and m the maximum of that row from minus
  infinity: `softmaxRows_apply`, for any extents. `maxCol_apply` reads the kept column of row maxima alone, and
  `max_negInf_rowMax` says that one more maximum with minus infinity leaves a row's maximum as it is.
-/
import Idealize.ShloMosaic.Lib.Pipeline.Value
import Idealize.ShloMosaic.Lib.ValueIdx
import Idealize.ShloMosaic.PureOps.Ideal.Laws
import proofs.«179012_j88802743812456_2_alg».proof.Proof.LibKeepdims

noncomputable section

open scoped BigOperators

namespace Cert.Lib.SoftmaxRows

open Idealize.ShloMosaic Idealize.ShloMosaic.ValueIdx Cert.Lib.Keepdims

/-- Minus infinity, as the f32 word that spells it. -/
abbrev negInf : EReal := Ideal.ofBits .f32 0xFF800000#32

/-- The maximum of a row, taken from minus infinity. -/
def rowMax {n : Nat} (s : Fin n → EReal) : EReal := (Finset.univ : Finset (Fin n)).fold max negInf s

/-- Taking the maximum with minus infinity once more changes nothing: the fold already started there. -/
theorem max_negInf_rowMax {n : Nat} (s : Fin n → EReal) : max negInf (rowMax s) = rowMax s :=
  max_eq_right ((Finset.le_fold_max negInf).mpr (Or.inl le_rfl))

/-- The softmax of a row at position q: the exponential of the entry less the row's maximum, over the sum of all
    such exponentials of the row. -/
def softmax {n : Nat} (s : Fin n → EReal) (q : Fin n) : EReal :=
  Ideal.div (Ideal.exp (s q - rowMax s)) (∑ k : Fin n, Ideal.exp (s k - rowMax s))

variable {a b : Nat}

/-- The maxima of an [a, b] array's rows, from minus infinity, kept as a column: row p of the column is the maximum
    of row p. -/
theorem maxCol_apply (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc (ix2 p (0 : Fin 1))
      = rowMax (fun k : Fin b => v (ix2 p k)) := by
  refine (castCol_apply _ hc p).trans ?_
  refine (Ideal.multiReduction_maximumf_single v _ hr hφ hacc (ix1 p)).trans ?_
  exact Finset.fold_congr fun k _ =>
    congrArg v (funext fun d => Fin.ext (by match d with | ⟨0, _⟩ => rfl | ⟨1, _⟩ => rfl))

/-- The row softmax as the vector program spells it, read at entry (p, q). -/
theorem softmaxRows_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    divf
        (exp (subf s (broadcastTo ⟨2, ![a, b]⟩
          (shapeCast ⟨2, ![a, 1]⟩ (multiReduction .maximumf [1] ⟨1, ![a]⟩ s 0xFF800000#32 hr hφ haccM) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 hr hφ haccM) hc) hb)))
              0x00000000#32 hr hφ haccA) hc) hb)
        (ix2 p q)
      = softmax (fun k : Fin b => s (ix2 p k)) q := by
  have he : ∀ k : Fin b,
      exp (subf s (broadcastTo ⟨2, ![a, b]⟩
          (shapeCast ⟨2, ![a, 1]⟩ (multiReduction .maximumf [1] ⟨1, ![a]⟩ s 0xFF800000#32 hr hφ haccM) hc) hb)) (ix2 p k)
        = Ideal.exp (s (ix2 p k) - rowMax (fun k : Fin b => s (ix2 p k))) := fun k =>
    congrArg (fun m => Ideal.exp (s (ix2 p k) - m))
      ((bcastCol_apply _ hb p k).trans (maxCol_apply s hr hφ haccM hc p))
  refine (congrArg₂ Ideal.div (he q) ((bcastCol_apply _ hb p q).trans (sumCol_apply _ _ hr hφ haccA hc p))).trans ?_
  unfold softmax
  exact congrArg (Ideal.div _) (Finset.sum_congr rfl fun k _ => he k)

end Cert.Lib.SoftmaxRows

end
-- ==== Proof.Attention.lean ====
/-
  Scaled dot-product attention on the extended reals, index by index.

  For a batch-head b, a query row r and a key row c, the score is the 64-term inner product of the query row with the
  key row, scaled by 1/8 (the head dimension is 64 and its square root 8). The attention weight of (b, r, c) is the
  softmax of row (b, r) of the scores at c: exp(s_c - m) / sum over c' of exp(s_c' - m), where m is the row's
  maximum taken from minus infinity. The output at (b, r, e) is the sum over the 2048 keys c of the weight (b, r, c)
  times the value entry (b, c, e).

  The scale can enter in two places: multiplied into every query entry before the inner product, or divided out of
  the finished inner product. When every query and key entry is a real number the two scores are the same real:
  dividing by 8 is multiplying by 1/8, and a real factor distributes over a finite sum of reals. This is the only
  point where finiteness of the inputs is used; everything after the score is one function of the score row.
-/
import Idealize.ShloMosaic.PureOps.Ideal
import Idealize.ShloMosaic.PureOps.Ideal.Laws
import Idealize.ShloMosaic.Lib.ValueIdx
import proofs.«179012_j88802743812456_2_alg».proof.Proof.LibSoftmaxRows

noncomputable section

open scoped BigOperators

namespace Cert.Attention

open Idealize.ShloMosaic Idealize.ShloMosaic.ValueIdx Cert.Lib.SoftmaxRows

/-- The two scale words the programs spell: one eighth and eight. -/
abbrev eighth : EReal := Ideal.ofBits .f32 0x3E000000#32
abbrev eight : EReal := Ideal.ofBits .f32 0x41000000#32

/-- The word 0x3E000000 is the real 1/8, exactly. -/
theorem eighth_eq : eighth = ((1 / 8 : ℝ) : EReal) := by
  simp [Ideal.ofBits, Ideal.ieee, -EReal.coe_mul]; norm_num

/-- The word 0x41000000 is the real 8, exactly. -/
theorem eight_eq : eight = ((8 : ℝ) : EReal) := by
  simp [Ideal.ofBits, Ideal.ieee, -EReal.coe_mul]; norm_num

/-- A query, key or value array: 32 batch-heads, 2048 rows, 64 head entries. -/
abbrev Arr : Type := (⟨3, ![32, 2048, 64]⟩ : Shape).Idx → EReal

/-- The score with the scale multiplied into each query entry. -/
def scoreFolded (q k : Arr) (b : Fin 32) (r c : Fin 2048) : EReal :=
  ∑ d : Fin 64, (q (ix3 b r d) * eighth) * k (ix3 b c d)

/-- The score with the scale divided out of the inner product. -/
def scoreDivided (q k : Arr) (b : Fin 32) (r c : Fin 2048) : EReal :=
  Ideal.div (∑ d : Fin 64, q (ix3 b r d) * k (ix3 b c d)) eight

/-- The attention weights: the softmax of each score row. -/
def weights (q k : Arr) : (⟨3, ![32, 2048, 2048]⟩ : Shape).Idx → EReal :=
  fun i => softmax (scoreFolded q k (i 0) (i 1)) (i 2)

/-- The attention output: each weight row against the value columns. -/
def output (q k v : Arr) : (⟨3, ![32, 2048, 64]⟩ : Shape).Idx → EReal :=
  fun i => ∑ c : Fin 2048, weights q k (ix3 (i 0) (i 1) c) * v (ix3 (i 0) c (i 2))

/-- Every entry of the array is a real number. -/
def AllReal (x : Arr) : Prop := ∀ i, ∃ r : ℝ, x i = (r : EReal)

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real queries and keys the two placements of the scale give the same score. -/
theorem scoreDivided_eq_scoreFolded (q k : Arr) (hq : AllReal q) (hk : AllReal k) (b : Fin 32) (r c : Fin 2048) :
    scoreDivided q k b r c = scoreFolded q k b r c := by
  choose qr hqr using hq
  choose kr hkr using hk
  unfold scoreDivided scoreFolded
  rw [eight_eq, Ideal.div_coe (by norm_num : (8 : ℝ) ≠ 0), eighth_eq]
  simp only [hqr, hkr, ← EReal.coe_mul]
  rw [← coe_sum, ← EReal.coe_mul, ← coe_sum]
  congr 1
  rw [Finset.sum_mul]
  exact Finset.sum_congr rfl fun d _ => by ring

/-- So for real queries and keys the score rows agree as functions. -/
theorem scoreDivided_row (q k : Arr) (hq : AllReal q) (hk : AllReal k) (b : Fin 32) (r : Fin 2048) :
    scoreDivided q k b r = scoreFolded q k b r :=
  funext fun c => scoreDivided_eq_scoreFolded q k hq hk b r c

end Cert.Attention

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.Payload.lean ====
/-
  What the kernel body stores, read at an entry, as a function of the three blocks it loads.

  At a grid point the body holds a [1, 512, 64] block of queries, and the whole [1, 2048, 64] slices of keys and
  values of one batch-head. It multiplies every query entry by 1/8, takes the inner products of the 512 scaled query
  rows with the 2048 key rows (a matrix product contracting the 64 head entries of both operands), and takes the
  softmax of each of the 512 score rows over the 2048 keys: that [512, 2048] block of weights is its first store.
  Its second store is the product of the weight block with the [2048, 64] value slice. The changes of float format
  around the two matrix products are the identity on the extended reals.
-/
import proofs.«179012_j88802743812456_2_alg».proof.Proof.Gen.KernelIdeal.Skeleton
import proofs.«179012_j88802743812456_2_alg».proof.Proof.Attention
import proofs.«179012_j88802743812456_2_alg».proof.Proof.LibMatmulRows
import proofs.«179012_j88802743812456_2_alg».proof.Proof.LibMatmulPlain
import proofs.«179012_j88802743812456_2_alg».proof.Proof.LibSoftmaxRows
import Idealize.ShloMosaic.Lib.Pipeline.Value

noncomputable section

open scoped BigOperators

namespace Cert.KernelIdeal.Payload

open Cert.KernelIdeal Cert.KernelIdeal.Gen Idealize.ShloMosaic Idealize.ShloMosaic.ValueIdx
open Cert.Attention Cert.Lib.SoftmaxRows

/-- A [1, A, B] block viewed as an [A, B] matrix: entry (p, q) is the block's entry (0, p, q). -/
theorem dropUnit_apply {α : Type} {A B : Nat} (v : (⟨3, ![1, A, B]⟩ : Shape).Idx → α)
    (h : (⟨3, ![1, A, B]⟩ : Shape).ShapeCasts ⟨2, ![A, B]⟩) (p : Fin A) (q : Fin B) :
    shapeCast ⟨2, ![A, B]⟩ v h (ix2 p q) = v (ix3 (0 : Fin 1) p q) := by
  refine shapeCast_apply v h (ix2 p q) (ix3 (0 : Fin 1) p q) ?_
  rw [Shape.rowMajor_val_three, Shape.rowMajor_val_two]
  show (0 * A + p.val) * B + q.val = p.val * B + q.val
  rw [Nat.zero_mul, Nat.zero_add]

/-- An [A, B] matrix stored as a [1, A, B] block: the block's entry (0, p, q) is the matrix's entry (p, q). -/
theorem addUnit_apply {α : Type} {A B : Nat} (v : (⟨2, ![A, B]⟩ : Shape).Idx → α)
    (h : (⟨2, ![A, B]⟩ : Shape).ShapeCasts ⟨3, ![1, A, B]⟩) (p : Fin A) (q : Fin B) :
    shapeCast ⟨3, ![1, A, B]⟩ v h (ix3 (0 : Fin 1) p q) = v (ix2 p q) := by
  refine shapeCast_apply v h (ix3 (0 : Fin 1) p q) (ix2 p q) ?_
  rw [Shape.rowMajor_val_three, Shape.rowMajor_val_two]
  show p.val * B + q.val = (0 * A + p.val) * B + q.val
  rw [Nat.zero_mul, Nat.zero_add]

/-- The block of scores: the scaled query rows against the key rows. -/
def scoreBlock (P0 : Vec Ideal S1x512x64 .f32) (P1 : Vec Ideal S1x2048x64 .f32) : FVec Ideal S512x2048 .f32 :=
  matmul dot_S512x64_S2048x64_S512x2048_1_1_0_0_n_n none
    (truncf .bf16 (mulf (shapeCast S512x64 P0 shapeCasts_S1x512x64_S512x64)
      (broadcast S512x64 (Scalar.ofBits (F := Ideal) .f32 0x3E000000#32))) bitsLt_bf16_f32)
    (truncf .bf16 (shapeCast S2048x64 P1 shapeCasts_S1x2048x64_S2048x64) bitsLt_bf16_f32)
    (constant S512x2048 .f32 0x00000000#32)

/-- Score (r, c) of the block: the 64-term inner product of scaled query row r with key row c. -/
theorem scoreBlock_apply (P0 : Vec Ideal S1x512x64 .f32) (P1 : Vec Ideal S1x2048x64 .f32) (r : Fin 512) (c : Fin 2048) :
    scoreBlock P0 P1 (ix2 r c) = ∑ d : Fin 64, (P0 (ix3 (0 : Fin 1) r d) * eighth) * P1 (ix3 (0 : Fin 1) c d) := by
  unfold scoreBlock
  refine (Cert.LibMatmulRows.matmul_zero_apply dot_S512x64_S2048x64_S512x2048_1_1_0_0_n_n_wf none _ _ r c).trans ?_
  refine Finset.sum_congr rfl fun d _ => ?_
  show (shapeCast S512x64 P0 shapeCasts_S1x512x64_S512x64 (ix2 r d) * eighth)
      * shapeCast S2048x64 P1 shapeCasts_S1x2048x64_S2048x64 (ix2 c d) = _
  rw [dropUnit_apply, dropUnit_apply]

/-- The weight block at (r, c): the softmax of score row r at key c. -/
theorem weightBlock_apply (P0 : Vec Ideal S1x512x64 .f32) (P1 : Vec Ideal S1x2048x64 .f32) (r : Fin 512) (c : Fin 2048) :
    k0_pay1 P0 P1 (ix2 r c)
      = softmax (fun c' : Fin 2048 => ∑ d : Fin 64, (P0 (ix3 (0 : Fin 1) r d) * eighth) * P1 (ix3 (0 : Fin 1) c' d)) c := by
  unfold k0_pay1
  refine (softmaxRows_apply (scoreBlock P0 P1) reduces_S512x2048_S512 (.inl rfl) rfl rfl shapeCasts_S512_S512x1
    broadcasts_S512x1_S512x2048 r c).trans ?_
  exact congrArg (fun s => softmax s c) (funext fun c' => scoreBlock_apply P0 P1 r c')

/-- The stored weight block is the weight block with a leading unit axis. -/
theorem storedWeights_apply (P0 : Vec Ideal S1x512x64 .f32) (P1 : Vec Ideal S1x2048x64 .f32) (r : Fin 512) (c : Fin 2048) :
    k0_pay2 P0 P1 (ix3 (0 : Fin 1) r c) = k0_pay1 P0 P1 (ix2 r c) := by
  unfold k0_pay2
  exact addUnit_apply _ shapeCasts_S512x2048_S1x512x2048 r c

/-- The stored output block at (0, r, e): weight row r against value column e. -/
theorem storedOutput_apply (P0 : Vec Ideal S1x512x64 .f32) (P1 P2 : Vec Ideal S1x2048x64 .f32) (r : Fin 512) (e : Fin 64) :
    k0_pay3 P0 P1 P2 (ix3 (0 : Fin 1) r e)
      = ∑ c : Fin 2048, k0_pay1 P0 P1 (ix2 r c) * P2 (ix3 (0 : Fin 1) c e) := by
  unfold k0_pay3
  refine (addUnit_apply _ shapeCasts_S512x64_S1x512x64 r e).trans ?_
  refine (Cert.LibMatmulPlain.matmul_zero_apply dot_S512x2048_S2048x64_S512x64_1_0_0_1_n_n_wf none _ _ r e).trans ?_
  refine Finset.sum_congr rfl fun c _ => ?_
  show k0_pay1 P0 P1 (ix2 r c) * shapeCast S2048x64 P2 shapeCasts_S1x2048x64_S2048x64 (ix2 c e) = _
  rw [dropUnit_apply]

end Cert.KernelIdeal.Payload

end
-- ==== Proof.WholeArrays.lean ====
/-
  From what each grid point writes back to the two whole result arrays.

  The grid has 32 x 4 points: point (bh, qi) handles batch-head bh and the 512 query rows qi*512 ... qi*512 + 511. Its
  query block is rows qi*512 + r of batch-head bh; its key and value blocks are the whole [2048, 64] slices of
  batch-head bh; it writes back block (bh, qi) of the output array (512 rows of 64) and block (bh, qi) of the weight
  array (512 rows of 2048). So the row r it computes is row qi*512 + r of `Attention.weights` and of
  `Attention.output` for batch-head bh: each written block is the restriction of one whole-array function. Every
  index of either result array lies in the block of the point (bh, row / 512), so after the run the arrays hold those
  functions everywhere.
-/
import proofs.«179012_j88802743812456_2_alg».proof.Proof.Gen.KernelIdeal.Value
import proofs.«179012_j88802743812456_2_alg».proof.Proof.Payload

noncomputable section

open scoped BigOperators

namespace Cert.KernelIdeal.Whole

open Cert.KernelIdeal Cert.KernelIdeal.Gen Cert.KernelIdeal.Value Cert.KernelIdeal.Payload
open Idealize.ShloMosaic Idealize.ShloMosaic.TcCoe Idealize.SL.Sem Idealize.ShloMosaic.ValueIdx
open Idealize.ShloMosaic.Pipeline (Dat)
open Cert.Attention Cert.Lib.SoftmaxRows

variable (m : (ℓ : Loc nD τ sig) → Buf (Elt Ideal) ℓ) (ρ : Dev nD → PrngReg)

/-! ## The blocks' places -/

theorem zeros3 : (![0, 0, 0] : Fin 3 → Nat) = fun _ => 0 := funext fun a => by fin_cases a <;> rfl

/-- The weight window's block index at a point is (bh, qi, 0) with bh below 32 and qi below 4. -/
theorem out_bounds : ∀ t : Fin cfg0.N, win0_4.index t (0 : Fin 3) < 32 ∧ win0_4.index t (1 : Fin 3) < 4
    ∧ win0_4.index t (2 : Fin 3) = 0 :=
  (by decide +kernel : ∀ t : Fin grid0.N, _)

/-- The other windows' block indices, relative to the weight window's: the query and output blocks move with it, the
    key and value blocks follow its batch-head only. -/
theorem idx_rel : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0
    ∧ win0_1.index t (2 : Fin 3) = 0
    ∧ win0_2.index t (0 : Fin 3) = win0_4.index t (0 : Fin 3) ∧ win0_2.index t (1 : Fin 3) = 0
    ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0 :=
  (by decide +kernel : ∀ t : Fin grid0.N, _)

/-- Every (bh, qi) is some point's block index, for both result windows. -/
theorem onto4 : ∀ (q0 : Fin 32) (q1 : Fin 4), ∃ t : Fin cfg0.N, win0_4.index t = ![q0.val, q1.val, 0] :=
  (by decide +kernel : ∀ (q0 : Fin 32) (q1 : Fin 4), ∃ t : Fin grid0.N, win0_4.index t = ![q0.val, q1.val, 0])

theorem onto3 : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-- The batch-head a point handles. -/
def bh (t : Fin cfg0.N) : Fin 32 := ⟨win0_4.index t (0 : Fin 3), (out_bounds t).1⟩

/-- The array row that row r of a point's blocks is. -/
def row (t : Fin cfg0.N) (r : Fin 512) : Fin 2048 :=
  ⟨win0_4.index t (1 : Fin 3) * 512 + r.val, by have := (out_bounds t).2.1; have := r.isLt; omega⟩

/-- The query block at a point: rows `row t r` of batch-head `bh t`. -/
theorem qblk_apply (c : Dev nD) (t : Fin cfg0.N) (r : Fin 512) (d : Fin 64) :
    iblk m c 0 t (ix3 (0 : Fin 1) r d) = V m c main_arg0 (ix3 (bh t) (row t r) d) := by
  obtain ⟨e00, e01, e02, -⟩ := idx_rel t
  show V m c main_arg0 (((cfg0.win 0).blk t).view.emb (ix3 (0 : Fin 1) r d)) = _
  refine congrArg (V m c main_arg0) (funext fun a => Fin.ext ?_)
  match a with
  | ⟨0, _⟩ => show win0_0.index t (0 : Fin 3) * 1 + 1 * 0 = win0_4.index t (0 : Fin 3); omega
  | ⟨1, _⟩ => show win0_0.index t (1 : Fin 3) * 512 + 1 * r.val = win0_4.index t (1 : Fin 3) * 512 + r.val; omega
  | ⟨2, _⟩ => show win0_0.index t (2 : Fin 3) * 64 + 1 * d.val = d.val; omega

/-- The key block at a point: the whole slice of batch-head `bh t`. -/
theorem kblk_apply (c : Dev nD) (t : Fin cfg0.N) (k : Fin 2048) (d : Fin 64) :
    iblk m c 1 t (ix3 (0 : Fin 1) k d) = V m c main_arg1 (ix3 (bh t) k d) := by
  obtain ⟨-, -, -, e10, e11, e12, -⟩ := idx_rel t
  show V m c main_arg1 (((cfg0.win 1).blk t).view.emb (ix3 (0 : Fin 1) k d)) = _
  refine congrArg (V m c main_arg1) (funext fun a => Fin.ext ?_)
  match a with
  | ⟨0, _⟩ => show win0_1.index t (0 : Fin 3) * 1 + 1 * 0 = win0_4.index t (0 : Fin 3); omega
  | ⟨1, _⟩ => show win0_1.index t (1 : Fin 3) * 2048 + 1 * k.val = k.val; omega
  | ⟨2, _⟩ => show win0_1.index t (2 : Fin 3) * 64 + 1 * d.val = d.val; omega

/-- The value block at a point: the whole slice of batch-head `bh t`. -/
theorem vblk_apply (c : Dev nD) (t : Fin cfg0.N) (k : Fin 2048) (e : Fin 64) :
    iblk m c 2 t (ix3 (0 : Fin 1) k e) = V m c main_arg2 (ix3 (bh t) k e) := by
  obtain ⟨-, -, -, -, -, -, e20, e21, e22, -⟩ := idx_rel t
  show V m c main_arg2 (((cfg0.win 2).blk t).view.emb (ix3 (0 : Fin 1) k e)) = _
  refine congrArg (V m c main_arg2) (funext fun a => Fin.ext ?_)
  match a with
  | ⟨0, _⟩ => show win0_2.index t (0 : Fin 3) * 1 + 1 * 0 = win0_4.index t (0 : Fin 3); omega
  | ⟨1, _⟩ => show win0_2.index t (1 : Fin 3) * 2048 + 1 * k.val = k.val; omega
  | ⟨2, _⟩ => show win0_2.index t (2 : Fin 3) * 64 + 1 * e.val = e.val; omega

/-! ## A block of the body's results is a block of the whole-array functions -/

/-- If the loaded query block holds row R of batch-head b at its row r, and the loaded key block the whole key slice
    of b, the stored weight row r is row R of the weights of b. -/
theorem weights_of_blocks (A0 A1 : Arr) (P0 : Vec Ideal S1x512x64 .f32) (P1 : Vec Ideal S1x2048x64 .f32)
    (b : Fin 32) (R : Fin 2048) (r : Fin 512)
    (h0 : ∀ d : Fin 64, P0 (ix3 (0 : Fin 1) r d) = A0 (ix3 b R d))
    (h1 : ∀ (k : Fin 2048) (d : Fin 64), P1 (ix3 (0 : Fin 1) k d) = A1 (ix3 b k d)) (k : Fin 2048) :
    k0_pay2 P0 P1 (ix3 (0 : Fin 1) r k) = weights A0 A1 (ix3 b R k) := by
  rw [storedWeights_apply, weightBlock_apply]
  show _ = softmax (fun k' : Fin 2048 => ∑ d : Fin 64, (A0 (ix3 b R d) * eighth) * A1 (ix3 b k' d)) k
  simp only [h0, h1]

/-- With the value block the whole value slice of b as well, the stored output row r is row R of the output of b. -/
theorem output_of_blocks (A0 A1 A2 : Arr) (P0 : Vec Ideal S1x512x64 .f32) (P1 P2 : Vec Ideal S1x2048x64 .f32)
    (b : Fin 32) (R : Fin 2048) (r : Fin 512)
    (h0 : ∀ d : Fin 64, P0 (ix3 (0 : Fin 1) r d) = A0 (ix3 b R d))
    (h1 : ∀ (k : Fin 2048) (d : Fin 64), P1 (ix3 (0 : Fin 1) k d) = A1 (ix3 b k d))
    (h2 : ∀ (k : Fin 2048) (e : Fin 64), P2 (ix3 (0 : Fin 1) k e) = A2 (ix3 b k e)) (e : Fin 64) :
    k0_pay3 P0 P1 P2 (ix3 (0 : Fin 1) r e) = output A0 A1 A2 (ix3 b R e) := by
  rw [storedOutput_apply]
  show _ = ∑ k : Fin 2048, weights A0 A1 (ix3 b R k) * A2 (ix3 b k e)
  refine Finset.sum_congr rfl fun k _ => ?_
  rw [h2, ← storedWeights_apply, weights_of_blocks A0 A1 P0 P1 b R r h0 h1 k]

/-! ## What a point writes back -/

/-- The weight block a point writes, entry by entry. -/
theorem weights_point (c : Dev nD) (t : Fin cfg0.N) (y : S1x512x2048.Idx) :
    k0_pay2 (iblk m c 0 t) (iblk m c 1 t) y
      = weights (V m c main_arg0) (V m c main_arg1) (((cfg0.win 4).blk t).view.emb y) := by
  obtain ⟨z, r, k, rfl⟩ : ∃ (z : Fin 1) (r : Fin 512) (k : Fin 2048), y = ix3 z r k := ⟨y 0, y 1, y 2, eq_ix3 y⟩
  obtain rfl : z = 0 := Subsingleton.elim _ _
  have hemb : ((cfg0.win 4).blk t).view.emb (ix3 (0 : Fin 1) r k) = ix3 (bh t) (row t r) k := by
    have e2 := (out_bounds t).2.2
    funext a; apply Fin.ext
    match a with
    | ⟨0, _⟩ => show win0_4.index t (0 : Fin 3) * 1 + 1 * 0 = win0_4.index t (0 : Fin 3); omega
    | ⟨1, _⟩ => show win0_4.index t (1 : Fin 3) * 512 + 1 * r.val = win0_4.index t (1 : Fin 3) * 512 + r.val; omega
    | ⟨2, _⟩ => show win0_4.index t (2 : Fin 3) * 2048 + 1 * k.val = k.val; omega
  rw [hemb]
  exact weights_of_blocks (V m c main_arg0) (V m c main_arg1) (iblk m c 0 t) (iblk m c 1 t) (bh t) (row t r) r
    (fun d => qblk_apply m c t r d) (fun k' d => kblk_apply m c t k' d) k

/-- The output block a point writes, entry by entry. -/
theorem output_point (c : Dev nD) (t : Fin cfg0.N) (y : S1x512x64.Idx) :
    k0_pay3 (iblk m c 0 t) (iblk m c 1 t) (iblk m c 2 t) y
      = output (V m c main_arg0) (V m c main_arg1) (V m c main_arg2) (((cfg0.win 3).blk t).view.emb y) := by
  obtain ⟨z, r, e, rfl⟩ : ∃ (z : Fin 1) (r : Fin 512) (e : Fin 64), y = ix3 z r e := ⟨y 0, y 1, y 2, eq_ix3 y⟩
  obtain rfl : z = 0 := Subsingleton.elim _ _
  have hemb : ((cfg0.win 3).blk t).view.emb (ix3 (0 : Fin 1) r e) = ix3 (bh t) (row t r) e := by
    obtain ⟨-, -, -, -, -, -, -, -, -, e30, e31, e32⟩ := idx_rel t
    funext a; apply Fin.ext
    match a with
    | ⟨0, _⟩ => show win0_3.index t (0 : Fin 3) * 1 + 1 * 0 = win0_4.index t (0 : Fin 3); omega
    | ⟨1, _⟩ => show win0_3.index t (1 : Fin 3) * 512 + 1 * r.val = win0_4.index t (1 : Fin 3) * 512 + r.val; omega
    | ⟨2, _⟩ => show win0_3.index t (2 : Fin 3) * 64 + 1 * e.val = e.val; omega
  rw [hemb]
  exact output_of_blocks (V m c main_arg0) (V m c main_arg1) (V m c main_arg2) (iblk m c 0 t) (iblk m c 1 t)
    (iblk m c 2 t) (bh t) (row t r) r (fun d => qblk_apply m c t r d) (fun k' d => kblk_apply m c t k' d)
    (fun k' e' => vblk_apply m c t k' e') e

/-- What a point writes back to the weight array is its block of the weights. -/
theorem flushed4_eq (c : Dev nD) (t : Fin cfg0.N) :
    (dats m 0 c).flushed 4 t
      = ((cfg0.win 4).blk t).view.read (Elt Ideal) (weights (V m c main_arg0) (V m c main_arg1)) := by
  rw [Value.flushed4]
  unfold out0_4
  rw [View.canon_unit_zero zeros3]
  simp only [View.ld_unit_zero (S := S1x512x64) zeros3, View.ld_unit_zero (S := S1x2048x64) zeros3]
  funext j
  exact weights_point m c t j

/-- What a point writes back to the output array is its block of the output. -/
theorem flushed3_eq (c : Dev nD) (t : Fin cfg0.N) :
    (dats m 0 c).flushed 3 t
      = ((cfg0.win 3).blk t).view.read (Elt Ideal)
          (output (V m c main_arg0) (V m c main_arg1) (V m c main_arg2)) := by
  rw [Value.flushed3]
  unfold out0_3
  rw [View.canon_unit_zero zeros3]
  simp only [View.ld_unit_zero (S := S1x512x64) zeros3, View.ld_unit_zero (S := S1x2048x64) zeros3]
  funext j
  exact output_point m c t j

/-! ## The blocks cover the arrays -/

theorem mem_blk4 (t : Fin cfg0.N) (i : S32x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v0_1).slice (win0_4.rect t)).set ↔ _
  rw [View.set_slice_whole, Rect.mem_set_unit]
  exact Iff.rfl

theorem mem_blk3 (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v0_0).slice (win0_3.rect t)).set ↔ _
  rw [View.set_slice_whole, Rect.mem_set_unit]
  exact Iff.rfl

/-- Entry (bh, R, k) of the weight array is in the block of the point with block index (bh, R / 512, 0). -/
theorem cover4 (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- Entry (bh, R, e) of the output array is in the block of the point with block index (bh, R / 512, 0). -/
theorem cover3 (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-! ## The arrays after the run -/

/-- The weight array ends holding the weights of the query and key arrays. -/
theorem final4 (c : Dev nD) : (dats m 0 c).arrAt 4 cfg0.N
    = weights (m ((c : Thread nD τ).loc main_arg0)) (m ((c : Thread nD τ).loc main_arg1)) :=
  (dats m 0 c).arrAt_eq_of_cover 4 (weights (V m c main_arg0) (V m c main_arg1)) (fun t _ => flushed4_eq m c t) cover4

/-- The output array ends holding the output of the query, key and value arrays. -/
theorem final3 (c : Dev nD) : (dats m 0 c).arrAt 3 cfg0.N
    = output (m ((c : Thread nD τ).loc main_arg0)) (m ((c : Thread nD τ).loc main_arg1))
        (m ((c : Thread nD τ).loc main_arg2)) :=
  (dats m 0 c).arrAt_eq_of_cover 3 (output (V m c main_arg0) (V m c main_arg1) (V m c main_arg2))
    (fun t _ => flushed3_eq m c t) cover3

/-- The kernel's run: both result arrays at their functions of the argument arrays, the arguments unchanged. -/
theorem run : θ_run defs (onTc (τ := τ) (main (F := Ideal))) ⟨m, fun _ => 0, ρ⟩ fun r => ∀ c : Dev nD,
      r.2.mem ((c : Thread nD τ).loc main_v0_0)
        = output (m ((c : Thread nD τ).loc main_arg0)) (m ((c : Thread nD τ).loc main_arg1))
            (m ((c : Thread nD τ).loc main_arg2))
      ∧ r.2.mem ((c : Thread nD τ).loc main_v0_1)
        = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.RefValue.lean ====
/-
  The reference program read at an index: its second result is the attention weights and its first the attention output.

  The reference takes the 64-term inner product of query row (b, r) with key row (b, c), divides it by 8, takes each
  row's maximum from minus infinity (and once more the maximum with minus infinity, which changes nothing), exponentiates
  the differences, sums each row from zero, divides, and multiplies the weight rows into the value columns. Read at
  (b, r, c) that is the softmax of the row of divided scores; for real queries and keys the divided score is the score
  with the scale folded into the query, so the results are `Attention.weights` and `Attention.output`.
-/
import proofs.«179012_j88802743812456_2_alg».proof.Proof.Gen.ReferenceIdeal.Read
import proofs.«179012_j88802743812456_2_alg».proof.Proof.Attention

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention Cert.Lib.SoftmaxRows

/-- The divided score: the inner product of query row (b, r) and key row (b, c), over 8. -/
theorem score_at (x0 x1 : Arr) (b : Fin 32) (r c : Fin 2048) :
    val_main_v2 (F := Ideal) x0 x1 (ix3 b r c) = scoreDivided x0 x1 b r c := by
  have hl : ∀ k : Fin 64, lidx_main_v0 (ix3 b r c) k = ix3 b r k := fun k =>
    funext fun a => Fin.ext (by match a with | ⟨0, _⟩ => rfl | ⟨1, _⟩ => rfl | ⟨2, _⟩ => rfl)
  have hr : ∀ k : Fin 64, ridx_main_v0 (ix3 b r c) k = ix3 b c k := fun k =>
    funext fun a => Fin.ext (by match a with | ⟨0, _⟩ => rfl | ⟨1, _⟩ => rfl | ⟨2, _⟩ => rfl)
  rw [val_main_v2_apply, val_main_v0_apply, val_main_v1_apply, val_main_cst_apply]
  unfold scoreDivided
  simp only [Ideal.hostDivf_def, Ideal.ofBits_def, hl, hr]

/-- The index of the score array that row (b, r) of the reduced array takes its k-th term from is (b, r, k). -/
theorem lift_row (h : S32x2048x2048.Reduces [2] S32x2048) (b : Fin 32) (r k : Fin 2048) :
    h.lift (ix2 b r) k = ix3 b r k :=
  funext fun a => Fin.ext (by match a with | ⟨0, _⟩ => rfl | ⟨1, _⟩ => rfl | ⟨2, _⟩ => rfl)

/-- The reduction over the keys is the row's maximum from minus infinity. -/
theorem max_at (x0 x1 : Arr) (b : Fin 32) (r : Fin 2048) :
    val_main_v3 (F := Ideal) x0 x1 (ix2 b r) = rowMax (scoreDivided x0 x1 b r) := by
  have hR : S32x2048x2048.Reduces [2] S32x2048 := by decide
  unfold val_main_v3
  rw [Host.reduce_eq_fold_single FloatOps.maximumf _ _ reducesTo_S32x2048x2048_S32x2048_d2 hR h_S_ (ix2 b r)]
  have hrow : (val_main_v2 (F := Ideal) x0 x1 ∘ hR.lift (ix2 b r)) = scoreDivided x0 x1 b r := funext fun k =>
    (congrArg (val_main_v2 (F := Ideal) x0 x1) (lift_row hR b r k)).trans (score_at x0 x1 b r k)
  rw [hrow]
  rfl

/-- The second maximum with minus infinity leaves the row's maximum. -/
theorem max2_at (x0 x1 : Arr) (b : Fin 32) (r : Fin 2048) :
    val_main_v5 (F := Ideal) x0 x1 (ix2 b r) = rowMax (scoreDivided x0 x1 b r) := by
  rw [val_main_v5_apply, val_main_v4_apply, val_main_cst_1_apply, max_at]
  exact max_negInf_rowMax _

/-- The row's maximum broadcast back over the keys. -/
theorem maxb_at (x0 x1 : Arr) (b : Fin 32) (r c : Fin 2048) :
    val_main_v7 (F := Ideal) x0 x1 (ix3 b r c) = rowMax (scoreDivided x0 x1 b r) := by
  have e6 : idx_main_v6 (idx_main_v7 (ix3 b r c)) = ix2 b r :=
    funext fun a => Fin.ext (by match a with | ⟨0, _⟩ => rfl | ⟨1, _⟩ => rfl)
  rw [val_main_v7_apply, val_main_v6_apply, e6, max2_at]

/-- The exponential of a score less its row's maximum. -/
theorem exp_at (x0 x1 : Arr) (b : Fin 32) (r c : Fin 2048) :
    val_main_v9 (F := Ideal) x0 x1 (ix3 b r c)
      = Ideal.exp (scoreDivided x0 x1 b r c - rowMax (scoreDivided x0 x1 b r)) := by
  rw [val_main_v9_apply, val_main_v8_apply, score_at, maxb_at]
  rfl

/-- The row sum of the exponentials, from zero. -/
theorem sum_at (x0 x1 : Arr) (b : Fin 32) (r : Fin 2048) :
    val_main_v10 (F := Ideal) x0 x1 (ix2 b r)
      = ∑ c' : Fin 2048, Ideal.exp (scoreDivided x0 x1 b r c' - rowMax (scoreDivided x0 x1 b r)) := by
  have e : ∀ k : Fin 2048, idx_main_v10 (ix2 b r) k = ix3 b r k := fun k =>
    funext fun a => Fin.ext (by match a with | ⟨0, _⟩ => rfl | ⟨1, _⟩ => rfl | ⟨2, _⟩ => rfl)
  rw [val_main_v10_apply, val_main_cst_2_apply]
  simp only [e, exp_at, Ideal.ofBits_def, Ideal.ofBits_zero_f32, zero_add]

/-- The reference's weights at (b, r, c): the softmax of the row of divided scores. -/
theorem weights_at (x0 x1 : Arr) (b : Fin 32) (r c : Fin 2048) :
    val_main_v13 (F := Ideal) x0 x1 (ix3 b r c) = softmax (scoreDivided x0 x1 b r) c := by
  have e11 : idx_main_v11 (idx_main_v12 (ix3 b r c)) = ix2 b r :=
    funext fun a => Fin.ext (by match a with | ⟨0, _⟩ => rfl | ⟨1, _⟩ => rfl)
  rw [val_main_v13_apply, val_main_v12_apply, val_main_v11_apply, e11, sum_at, exp_at]
  rfl

/-- For real queries and keys the reference's second result is the attention weights. -/
theorem weights_eq (x0 x1 : Arr) (h0 : AllReal x0) (h1 : AllReal x1) :
    val_main_v13 (F := Ideal) x0 x1 = weights x0 x1 := by
  funext i
  obtain ⟨b, r, c, rfl⟩ : ∃ (b : Fin 32) (r c : Fin 2048), i = ix3 b r c := ⟨i 0, i 1, i 2, eq_ix3 i⟩
  rw [weights_at, scoreDivided_row x0 x1 h0 h1 b r]
  rfl

/-- For real queries and keys the reference's first result is the attention output. -/
theorem output_eq (x0 x1 x2 : Arr) (h0 : AllReal x0) (h1 : AllReal x1) :
    val_main_v14 (F := Ideal) x0 x1 x2 = output x0 x1 x2 := by
  funext i
  obtain ⟨b, r, e, rfl⟩ : ∃ (b : Fin 32) (r : Fin 2048) (e : Fin 64), i = ix3 b r e := ⟨i 0, i 1, i 2, eq_ix3 i⟩
  have hl : ∀ k : Fin 2048, lidx_main_v14 (ix3 b r e) k = ix3 b r k := fun k =>
    funext fun a => Fin.ext (by match a with | ⟨0, _⟩ => rfl | ⟨1, _⟩ => rfl | ⟨2, _⟩ => rfl)
  have hr : ∀ k : Fin 2048, ridx_main_v14 (ix3 b r e) k = ix3 b k e := fun k =>
    funext fun a => Fin.ext (by match a with | ⟨0, _⟩ => rfl | ⟨1, _⟩ => rfl | ⟨2, _⟩ => rfl)
  rw [val_main_v14_apply, weights_eq x0 x1 h0 h1]
  simp only [hl, hr]
  rfl

end Cert.ReferenceIdeal.RefValue

end
-- ==== Proof.FiniteInputs.lean ====
/-
  From the precondition to real entries.

  The precondition is a conjunction of three tests, one per input array: every entry's absolute value is below plus
  infinity. An extended real whose absolute value is below plus infinity is neither infinity, so it is a real number.
  Only the tests of the query and key arrays are used.
-/
import Idealize.ShloMosaic.Lib.ReduceAll
import Idealize.ShloMosaic.Lib.Pipeline.Value
import Idealize.ShloMosaic.Lib.ValueIdx
import proofs.«179012_j88802743812456_2_alg».proof.Pre_finite_inputs
import proofs.«179012_j88802743812456_2_alg».proof.Proof.Attention

noncomputable section

namespace Cert.Pre_finite_inputs.Finite

open Cert.Pre_finite_inputs Cert.Pre_finite_inputs.Facts Idealize.ShloMosaic Cert.Attention

/-- The rank-0 shape has one index. -/
instance : Subsingleton S_.Idx := ⟨fun a b => funext fun d => d.elim0⟩

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One array's test, passed everywhere, makes every entry of the array real. -/
theorem allReal_of_test [Facts] (x : FVec Ideal S32x2048x64 .f32)
    (h : Host.reduce IntOp.andi
        (cmpf .olt (Host.absf x) (broadcastInDim S32x2048x64 ![] bcast_S_S32x2048x64 (constant (F := Ideal) S_ .f32 0x7F800000#32)))
        (constantI S_ 1 1#1) reducesTo_S32x2048x64_S_d0_1_2 h_S_ ValueIdx.ix0 = 1#1) : AllReal x := by
  intro i
  have e := Host.reduce_andi_all _ _ reducesTo_S32x2048x64_S_d0_1_2 h_S_ ValueIdx.ix0 h i
  rw [ValueIdx.cmpf_apply,
    broadcastInDim_apply _ bcast_S_S32x2048x64 _ i (fun a => a.elim0) (fun a => a.elim0)] at e
  exact real_of_abs_lt_inf _ e

/-- Under the precondition the query and key arrays hold real numbers. -/
theorem allReal_of_pre [Facts] (x0 x1 x2 : FVec Ideal S32x2048x64 .f32)
    (h : fn (F := Ideal) x0 x1 x2 = fun _ => 1#1) : AllReal x0 ∧ AllReal x1 := by
  have h0 := congrFun h ValueIdx.ix0
  dsimp only [fn] at h0
  obtain ⟨hAB, -⟩ := IntOp.andi_eq_one.1 h0
  obtain ⟨hA, hB⟩ := IntOp.andi_eq_one.1 hAB
  exact ⟨allReal_of_test x0 hA, allReal_of_test x1 hB⟩

end Cert.Pre_finite_inputs.Finite

end
-- ==== Proof.lean ====
/-
  Scaled dot-product attention over 32 batch-heads, 2048 positions and head dimension 64: a kernel that handles 512
  query rows of one batch-head per grid point against a plain reference, equal on the extended reals.

  Both programs return the attention output and the attention weights. The weights are the row softmax of the scores
  q . k / 8; the output is the weights times the values. The kernel multiplies each query entry by 1/8 before the inner
  product, the reference divides the inner product by 8: for real queries and keys these are the same real number
  (Proof/Attention.lean), and the precondition makes every input entry real (Proof/FiniteInputs.lean). The reference
  takes one more maximum with minus infinity than the kernel, which changes nothing. From the score on, the two
  programs apply the same operations: the row maximum from minus infinity, the exponential of the difference, the
  row sum from zero, the quotient, and the product with the values.

  Proof/RefValue.lean reads the reference's two results at an index; Proof/Payload.lean reads the two blocks the
  kernel body stores; Proof/WholeArrays.lean places each grid point's blocks in the result arrays and shows they
  fill them. The kernel's idealization rewrote nothing, so that claim is trivial; the three frame claims are the
  generated frames of the two kernels and the reference's generated run.
-/
import proofs.«179012_j88802743812456_2_alg».proof.Defs
import proofs.«179012_j88802743812456_2_alg».proof.Proof.Gen.Kernel
import proofs.«179012_j88802743812456_2_alg».proof.Proof.Gen.Kernel.Skeleton
import proofs.«179012_j88802743812456_2_alg».proof.Proof.Gen.Kernel.Launch
import proofs.«179012_j88802743812456_2_alg».proof.Proof.Gen.Kernel.Points
import proofs.«179012_j88802743812456_2_alg».proof.Proof.Gen.Kernel.Frame
import proofs.«179012_j88802743812456_2_alg».proof.Proof.Gen.KernelIdeal
import proofs.«179012_j88802743812456_2_alg».proof.Proof.Gen.KernelIdeal.Skeleton
import proofs.«179012_j88802743812456_2_alg».proof.Proof.Gen.KernelIdeal.Launch
import proofs.«179012_j88802743812456_2_alg».proof.Proof.Gen.KernelIdeal.Points
import proofs.«179012_j88802743812456_2_alg».proof.Proof.Gen.KernelIdeal.Frame
import proofs.«179012_j88802743812456_2_alg».proof.Proof.Gen.ReferenceIdeal
import proofs.«179012_j88802743812456_2_alg».proof.Proof.Gen.Pre_finite_inputs
import proofs.«179012_j88802743812456_2_alg».proof.Proof.Gen.KernelIdeal.Value
import proofs.«179012_j88802743812456_2_alg».proof.Proof.Gen.ReferenceIdeal.Run
import proofs.«179012_j88802743812456_2_alg».proof.Proof.Gen.ReferenceIdeal.Read
import proofs.«179012_j88802743812456_2_alg».proof.Proof.WholeArrays
import proofs.«179012_j88802743812456_2_alg».proof.Proof.RefValue
import proofs.«179012_j88802743812456_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says about the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals both programs end with the attention output and the attention weights of the same real
    queries and keys and the same values. -/
theorem algebraic : Cert.algebraic_KernelIdeal_ReferenceIdeal := by
  intro m ρ m' ρ' hpre hagree
  have hreal := fun c => Cert.Pre_finite_inputs.Finite.allReal_of_pre _ _ _ (hpre c)
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v14_eq _ _ _).trans
      (Cert.ReferenceIdeal.RefValue.output_eq _ _ _ (hreal c).1 (hreal c).2)
  · rw [(hagree c).1, (hagree c).2.1]
    exact (Cert.ReferenceIdeal.Read.val_main_v13_eq _ _).trans
      (Cert.ReferenceIdeal.RefValue.weights_eq _ _ (hreal c).1 (hreal c).2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
